-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x1024 .f32) (main_arg1 : IVec S4x4096 32) (main_arg2 : FVec F S1024x4096 .f32) (main_arg3 : FVec F S4096 .f32) (main_arg4 : FVec F S1024x4096 .f32) (main_arg5 : FVec F S4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_v13 main_v16
-- ==== Kernel.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S16384x1024 : Shape := ⟨2, ![16384, 1024]⟩
abbrev S16384x1 : Shape := ⟨2, ![16384, 1]⟩
abbrev S1x4096 : Shape := ⟨2, ![1, 4096]⟩
abbrev S16384x4096 : Shape := ⟨2, ![16384, 4096]⟩
abbrev S256x1024 : Shape := ⟨2, ![256, 1024]⟩
abbrev S256x1 : Shape := ⟨2, ![256, 1]⟩
abbrev S1024x1024 : Shape := ⟨2, ![1024, 1024]⟩
abbrev S1x1024 : Shape := ⟨2, ![1, 1024]⟩
abbrev S4x4096x4096 : Shape := ⟨3, ![4, 4096, 4096]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x4096, .f32⟩
  | .hbm, ⟨3, _⟩ => ⟨S4096, .f32⟩
  | .hbm, ⟨4, _⟩ => ⟨S1024x4096, .f32⟩
  | .hbm, ⟨5, _⟩ => ⟨S4096, .f32⟩
  | .hbm, ⟨6, _⟩ => ⟨S16384x1024, .f32⟩
  | .hbm, ⟨7, _⟩ => ⟨S16384x1, .i32⟩
  | .hbm, ⟨8, _⟩ => ⟨S1x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S4x4096x4096, .f32⟩
  | .hbm, ⟨13, _⟩ => ⟨S4x4096x4096, .f32⟩
  | .local _ .vmem, ⟨0, _⟩ => ⟨S256x1024, .f32⟩
  | .local _ .vmem, ⟨1, _⟩ => ⟨S256x1024, .f32⟩
  | .local _ .vmem, ⟨2, _⟩ => ⟨S256x1, .i32⟩
  | .local _ .vmem, ⟨3, _⟩ => ⟨S256x1, .i32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x4096x1024_S16384x1024 : S4x4096x1024.ShapeCasts S16384x1024
  shapeCasts_S4x4096_S16384x1 : S4x4096.ShapeCasts S16384x1
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  natLt_1_32 : 1 < 32
  broadcasts_S256x1_S256x1024 : S256x1.Broadcasts S256x1024
  shapeCasts_S16384x4096_S4x4096x4096 : S16384x4096.ShapeCasts S4x4096x4096
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .f32 = 32 ∨ (Rect.block (s := S1024x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x4096.size a
  hwx0_4 : ∀ i : grid0.Coords, EltTy.bits .f32 = 32 ∨ (Rect.block (s := S1024x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x4096.size a
  hwx0_6 : ∀ i : grid0.Coords, EltTy.bits .f32 = 32 ∨ (Rect.block (s := S16384x4096) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x4096.size a
  hwx0_7 : ∀ i : grid0.Coords, EltTy.bits .f32 = 32 ∨ (Rect.block (s := S16384x4096) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S_ : Shape := ⟨0, ![]⟩
abbrev S4x4096x1 : Shape := ⟨3, ![4, 4096, 1]⟩
abbrev S4x4096x4096 : Shape := ⟨3, ![4, 4096, 4096]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x4096, .f32⟩
  | .hbm, ⟨3, _⟩ => ⟨S4096, .f32⟩
  | .hbm, ⟨4, _⟩ => ⟨S1024x4096, .f32⟩
  | .hbm, ⟨5, _⟩ => ⟨S4096, .f32⟩
  | .hbm, ⟨6, _⟩ => ⟨S_, .i32⟩
  | .hbm, ⟨7, _⟩ => ⟨S4x4096, .i32⟩
  | .hbm, ⟨8, _⟩ => ⟨S4x4096, .i1⟩
  | .hbm, ⟨9, _⟩ => ⟨S4x4096x1, .i1⟩
  | .hbm, ⟨10, _⟩ => ⟨S4x4096x1, .f32⟩
  | .hbm, ⟨11, _⟩ => ⟨S4x4096x4096, .f32⟩
  | .hbm, ⟨12, _⟩ => ⟨S1x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .i32⟩
  | .hbm, ⟨18, _⟩ => ⟨S4x4096, .i32⟩
  | .hbm, ⟨19, _⟩ => ⟨S4x4096, .i1⟩
  | .hbm, ⟨20, _⟩ => ⟨S4x4096x1, .i1⟩
  | .hbm, ⟨21, _⟩ => ⟨S4x4096x1, .f32⟩
  | .hbm, ⟨22, _⟩ => ⟨S4x4096x4096, .f32⟩
  | .hbm, ⟨23, _⟩ => ⟨S1x1x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S4x4096x1_S4x4096x4096_0_1_2 : S4x4096x1.BroadcastsInDim S4x4096x4096 (![0, 1, 2] : Fin 3 → Fin S4x4096x4096.rank)
  dot_S4x4096x1024_S1024x4096_S4x4096x4096_2_0_01_1_n_n_wf : DotDims.WF S4x4096x1024 S1024x4096 S4x4096x4096 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf

class Facts : Prop extends Facts₀ where

variable [Facts]
-- ==== Proof.Spec.lean ====
/-
  The mathematics both programs compute, stated once and over no program.

  A token is a row of 1024 numbers and carries an integer type id.  Expert `tid` sends the token to the row
  `x ↦ (Σ_k x k · W k o + b o)` of 4096 numbers and then keeps it only where the token's type id is `tid`: the row is
  multiplied by the gate `[type id = tid]`, the real number 1 or 0.  `expertAt` is one entry of that row as a function of
  the token, the weight column, the bias entry and the type id; `expert` is the whole [4, 4096, 4096] array over the
  batch, and `expertFlat` the same over the 16384 tokens laid out as rows of a matrix (the bias a [1, 4096] row, the
  type ids a [16384, 1] column).
-/
import Idealize.ShloMosaic.Lib.ValueIdx
import Idealize.ShloMosaic.PureOps.Ideal

noncomputable section

open scoped BigOperators

namespace Cert.Moe

open Idealize.ShloMosaic Idealize.ShloMosaic.ValueIdx

/-- The gate of expert `tid` at a token of type id `x`: the real number 1 when `x = tid`, else 0 (the comparison's bit
    read as a natural number). -/
def gate (tid x : BitVec 32) : EReal := (((IntOp.cmpi .eq x tid).toNat : ℝ) : EReal)

/-- One entry of an expert's output: the token's row against a weight column, plus the bias entry, times the gate. -/
def expertAt (tid : BitVec 32) (row col : Fin 1024 → EReal) (bias : EReal) (ty : BitVec 32) : EReal :=
  (∑ k : Fin 1024, row k * col k + bias) * gate tid ty

/-- Expert `tid` over the batch: entry (b, s, o) from token (b, s), weight column o, bias entry o. -/
def expert (tid : BitVec 32) (h : (⟨3, ![4, 4096, 1024]⟩ : Shape).Idx → EReal) (t : (⟨2, ![4, 4096]⟩ : Shape).Idx → BitVec 32)
    (W : (⟨2, ![1024, 4096]⟩ : Shape).Idx → EReal) (b : (⟨1, ![4096]⟩ : Shape).Idx → EReal) :
    (⟨3, ![4, 4096, 4096]⟩ : Shape).Idx → EReal :=
  fun i => expertAt tid (fun k => h (ix3 (i 0 : Fin 4) (i 1 : Fin 4096) k)) (fun k => W (ix2 k (i 2 : Fin 4096)))
    (b (ix1 (i 2 : Fin 4096))) (t (ix2 (i 0 : Fin 4) (i 1 : Fin 4096)))

/-- The same over the 16384 tokens as the rows of a matrix: entry (n, o) from row n, weight column o, the bias row's
    entry o and the type-id column's entry n. -/
def expertFlat (tid : BitVec 32) (h : (⟨2, ![16384, 1024]⟩ : Shape).Idx → EReal) (t : (⟨2, ![16384, 1]⟩ : Shape).Idx → BitVec 32)
    (W : (⟨2, ![1024, 4096]⟩ : Shape).Idx → EReal) (b : (⟨2, ![1, 4096]⟩ : Shape).Idx → EReal) :
    (⟨2, ![16384, 4096]⟩ : Shape).Idx → EReal :=
  fun i => expertAt tid (fun k => h (ix2 (i 0 : Fin 16384) k)) (fun k => W (ix2 k (i 1 : Fin 4096)))
    (b (ix2 (0 : Fin 1) (i 1 : Fin 4096))) (t (ix2 (i 0 : Fin 16384) (0 : Fin 1)))

/-- The gate is the comparison's bit converted to a float as an unsigned integer … -/
theorem gate_uitofp (tid x : BitVec 32) :
    FloatOps.uitofp (F := Ideal) .f32 (IntOp.cmpi .eq x tid) = gate tid x := rfl

/-- … and also that bit widened to 32 bits and converted as a signed integer: a one-bit word widened by zeros is 0 or 1,
    whose signed reading is its unsigned one. -/
theorem gate_sitofp (tid x : BitVec 32) :
    FloatOps.sitofp (F := Ideal) .f32 ((IntOp.cmpi .eq x tid).setWidth 32) = gate tid x := by
  show (((((IntOp.cmpi .eq x tid).setWidth 32).toInt : ℤ) : ℝ) : EReal) = (((IntOp.cmpi .eq x tid).toNat : ℝ) : EReal)
  rcases BitVec.eq_zero_or_eq_one (IntOp.cmpi .eq x tid) with h | h <;> rw [h] <;> norm_num

end Cert.Moe

end
-- ==== Proof.RefSpec.lean ====
/-
  The reference computes the two experts.
-/
import proofs.«140531_j27333171872221_1_alg».proof.Proof.Gen.ReferenceIdeal.Read
import proofs.«140531_j27333171872221_1_alg».proof.Proof.Spec

noncomputable section

open scoped BigOperators

namespace Cert.Moe.Ref

open Cert.ReferenceIdeal Cert.ReferenceIdeal.Gen Cert.ReferenceIdeal.Read
open Idealize.ShloMosaic Idealize.ShloMosaic.ValueIdx

/-! ## Where each operand is read

The reference's output entry (b, s, o) reads the hidden state along row (b, s), the weight along column o, the bias at o
(through two broadcasts, [4096] → [1, 1, 4096] → [4, 4096, 4096]) and the type id at (b, s) (through the broadcasts
[4, 4096] → [4, 4096, 1] → [4, 4096, 4096]).  The four index equations below say so, coordinate by coordinate. -/

/-- The contraction's left operand at position `k` of output entry `i` is entry `k` of token (i 0, i 1). -/
theorem left_index (i : S4x4096x4096.Idx) (k : Fin 1024) :
    lidx_main_v4 i k = ix3 (i 0 : Fin 4) (i 1 : Fin 4096) k :=
  funext fun a => Fin.ext (by match a with | ⟨0, _⟩ => rfl | ⟨1, _⟩ => rfl | ⟨2, _⟩ => rfl)

/-- The contraction's right operand at position `k` of output entry `i` is entry `k` of weight column i 2. -/
theorem right_index (i : S4x4096x4096.Idx) (k : Fin 1024) :
    ridx_main_v4 i k = ix2 k (i 2 : Fin 4096) :=
  funext fun a => Fin.ext (by match a with | ⟨0, _⟩ => rfl | ⟨1, _⟩ => rfl)

/-- The twice-broadcast bias at output entry `i` is the bias entry i 2. -/
theorem bias_index (i : S4x4096x4096.Idx) :
    idx_main_v5 (idx_main_v6 i) = ix1 (i 2 : Fin 4096) :=
  funext fun a => Fin.ext (by match a with | ⟨0, _⟩ => rfl)

/-- The twice-broadcast comparison at output entry `i` is the comparison at token (i 0, i 1). -/
theorem gate_index (i : S4x4096x4096.Idx) :
    idx_main_v2 (idx_main_v8 i) = ix2 (i 0 : Fin 4) (i 1 : Fin 4096) :=
  funext fun a => Fin.ext (by match a with | ⟨0, _⟩ => rfl | ⟨1, _⟩ => rfl)

/-- The second contraction reads its left operand at the same place as the first. -/
theorem left_index' (i : S4x4096x4096.Idx) (k : Fin 1024) :
    lidx_main_v14 i k = ix3 (i 0 : Fin 4) (i 1 : Fin 4096) k :=
  funext fun a => Fin.ext (by match a with | ⟨0, _⟩ => rfl | ⟨1, _⟩ => rfl | ⟨2, _⟩ => rfl)

/-- The second contraction reads its right operand at the same place as the first. -/
theorem right_index' (i : S4x4096x4096.Idx) (k : Fin 1024) :
    ridx_main_v14 i k = ix2 k (i 2 : Fin 4096) :=
  funext fun a => Fin.ext (by match a with | ⟨0, _⟩ => rfl | ⟨1, _⟩ => rfl)

/-- The second expert's twice-broadcast bias at output entry `i` is its bias entry i 2. -/
theorem bias_index' (i : S4x4096x4096.Idx) :
    idx_main_v15 (idx_main_v16 i) = ix1 (i 2 : Fin 4096) :=
  funext fun a => Fin.ext (by match a with | ⟨0, _⟩ => rfl)

/-- The second expert's twice-broadcast comparison at output entry `i` is the comparison at token (i 0, i 1). -/
theorem gate_index' (i : S4x4096x4096.Idx) :
    idx_main_v12 (idx_main_v18 i) = ix2 (i 0 : Fin 4) (i 1 : Fin 4096) :=
  funext fun a => Fin.ext (by match a with | ⟨0, _⟩ => rfl | ⟨1, _⟩ => rfl)

theorem ref_expert0 (x0 : (⟨S4x4096x1024, .f32⟩ : BufTy).Contents (Elt Ideal)) (x1 : (⟨S4x4096, .i32⟩ : BufTy).Contents (Elt Ideal))
    (x2 : (⟨S1024x4096, .f32⟩ : BufTy).Contents (Elt Ideal)) (x3 : (⟨S4096, .f32⟩ : BufTy).Contents (Elt Ideal)) :
    val_main_v9 (F := Ideal) x0 x1 x2 x3 = Cert.Moe.expert 0#32 x0 x1 x2 x3 := by
  funext i
  rw [val_main_v9_apply, val_main_v7_apply, val_main_v4_apply, val_main_v6_apply, val_main_v5_apply,
    val_main_v8_apply, val_main_v3_apply, val_main_v2_apply, val_main_v1_apply, val_main_v0_apply, val_main_c_apply,
    bias_index, gate_index, gate_uitofp]
  simp only [left_index, right_index]
  rfl

theorem ref_expert1 (x0 : (⟨S4x4096x1024, .f32⟩ : BufTy).Contents (Elt Ideal)) (x1 : (⟨S4x4096, .i32⟩ : BufTy).Contents (Elt Ideal))
    (x4 : (⟨S1024x4096, .f32⟩ : BufTy).Contents (Elt Ideal)) (x5 : (⟨S4096, .f32⟩ : BufTy).Contents (Elt Ideal)) :
    val_main_v19 (F := Ideal) x0 x1 x4 x5 = Cert.Moe.expert 1#32 x0 x1 x4 x5 := by
  funext i
  rw [val_main_v19_apply, val_main_v17_apply, val_main_v14_apply, val_main_v16_apply, val_main_v15_apply,
    val_main_v18_apply, val_main_v13_apply, val_main_v12_apply, val_main_v11_apply, val_main_v10_apply,
    val_main_c_0_apply, bias_index', gate_index', gate_uitofp]
  simp only [left_index', right_index']
  rfl

end Cert.Moe.Ref

end
-- ==== Proof.Flatten.lean ====
/-
  Laying the batch out as rows of a matrix, and the result back, changes nothing.
-/
import proofs.«140531_j27333171872221_1_alg».proof.Proof.Spec
import Idealize.ShloMosaic.Lib.Pipeline.Value
import Idealize.ShloMosaic.Lib.ValueIdx

noncomputable section

open scoped BigOperators

namespace Cert.Moe

open Idealize.ShloMosaic Idealize.ShloMosaic.ValueIdx

/-- Token `n = 4096·b + s` of the flattened batch is token `(b, s)`: entry `(n, k)` of the [16384, 1024] matrix and entry
    `(b, s, k)` of the [4, 4096, 1024] array both sit at row-major position `(4096·b + s)·1024 + k`. -/
theorem flat_row {α : Type} (x : (⟨3, ![4, 4096, 1024]⟩ : Shape).Idx → α)
    (c : (⟨3, ![4, 4096, 1024]⟩ : Shape).ShapeCasts ⟨2, ![16384, 1024]⟩)
    (b : Fin 4) (s : Fin 4096) (k : Fin 1024) (n : Fin 16384) (hn : n.val = b.val * 4096 + s.val) :
    shapeCast ⟨2, ![16384, 1024]⟩ x c (ix2 n k) = x (ix3 b s k) := by
  refine shapeCast_apply x c _ _ ?_
  rw [Shape.rowMajor_val_three, Shape.rowMajor_val_two]
  show (b.val * 4096 + s.val) * 1024 + k.val = n.val * 1024 + k.val
  rw [hn]

/-- The type-id column: entry `(n, 0)` of the [16384, 1] column and entry `(b, s)` of the [4, 4096] array both sit at
    row-major position `4096·b + s`. -/
theorem flat_col {α : Type} (x : (⟨2, ![4, 4096]⟩ : Shape).Idx → α)
    (c : (⟨2, ![4, 4096]⟩ : Shape).ShapeCasts ⟨2, ![16384, 1]⟩)
    (b : Fin 4) (s : Fin 4096) (n : Fin 16384) (hn : n.val = b.val * 4096 + s.val) :
    shapeCast ⟨2, ![16384, 1]⟩ x c (ix2 n (0 : Fin 1)) = x (ix2 b s) := by
  refine shapeCast_apply x c _ _ ?_
  rw [Shape.rowMajor_val_two, Shape.rowMajor_val_two]
  show b.val * 4096 + s.val = n.val * 1 + 0
  rw [hn]; omega

/-- The bias row: entry `(0, o)` of the [1, 4096] row and entry `o` of the [4096] vector both sit at position `o`. -/
theorem flat_bias {α : Type} (x : (⟨1, ![4096]⟩ : Shape).Idx → α)
    (c : (⟨1, ![4096]⟩ : Shape).ShapeCasts ⟨2, ![1, 4096]⟩) (o : Fin 4096) :
    shapeCast ⟨2, ![1, 4096]⟩ x c (ix2 (0 : Fin 1) o) = x (ix1 o) := by
  refine shapeCast_apply x c _ _ ?_
  rw [Shape.rowMajor_val_one, Shape.rowMajor_val_two]
  show o.val = 0 * 4096 + o.val
  omega

/-- The result back: entry `(b, s, o)` of the [4, 4096, 4096] array and entry `(n, o)` of the [16384, 4096] matrix both
    sit at row-major position `(4096·b + s)·4096 + o`. -/
theorem unflat_out {α : Type} (x : (⟨2, ![16384, 4096]⟩ : Shape).Idx → α)
    (c : (⟨2, ![16384, 4096]⟩ : Shape).ShapeCasts ⟨3, ![4, 4096, 4096]⟩)
    (b : Fin 4) (s : Fin 4096) (o : Fin 4096) (n : Fin 16384) (hn : n.val = b.val * 4096 + s.val) :
    shapeCast ⟨3, ![4, 4096, 4096]⟩ x c (ix3 b s o) = x (ix2 n o) := by
  refine shapeCast_apply x c _ _ ?_
  rw [Shape.rowMajor_val_three, Shape.rowMajor_val_two]
  show n.val * 4096 + o.val = (b.val * 4096 + s.val) * 4096 + o.val
  rw [hn]

theorem expert_of_flat (tid : BitVec 32) (h : (⟨3, ![4, 4096, 1024]⟩ : Shape).Idx → EReal) (t : (⟨2, ![4, 4096]⟩ : Shape).Idx → BitVec 32)
    (W : (⟨2, ![1024, 4096]⟩ : Shape).Idx → EReal) (b : (⟨1, ![4096]⟩ : Shape).Idx → EReal)
    (c1 : (⟨3, ![4, 4096, 1024]⟩ : Shape).ShapeCasts ⟨2, ![16384, 1024]⟩)
    (c2 : (⟨2, ![4, 4096]⟩ : Shape).ShapeCasts ⟨2, ![16384, 1]⟩)
    (c3 : (⟨1, ![4096]⟩ : Shape).ShapeCasts ⟨2, ![1, 4096]⟩)
    (c4 : (⟨2, ![16384, 4096]⟩ : Shape).ShapeCasts ⟨3, ![4, 4096, 4096]⟩) :
    shapeCast ⟨3, ![4, 4096, 4096]⟩
        (expertFlat tid (shapeCast ⟨2, ![16384, 1024]⟩ h c1) (shapeCast ⟨2, ![16384, 1]⟩ t c2) W (shapeCast ⟨2, ![1, 4096]⟩ b c3)) c4
      = expert tid h t W b := by
  funext i
  obtain ⟨p, s, o, rfl⟩ : ∃ (p : Fin 4) (s : Fin 4096) (o : Fin 4096), i = ix3 p s o := ⟨i 0, i 1, i 2, eq_ix3 i⟩
  -- the token's row in the matrix
  have hlt : p.val * 4096 + s.val < 16384 := by have := p.isLt; have := s.isLt; omega
  have hn : (⟨p.val * 4096 + s.val, hlt⟩ : Fin 16384).val = p.val * 4096 + s.val := rfl
  rw [unflat_out _ c4 p s o ⟨p.val * 4096 + s.val, hlt⟩ hn]
  show expertAt tid (fun k => shapeCast ⟨2, ![16384, 1024]⟩ h c1 (ix2 ⟨p.val * 4096 + s.val, hlt⟩ k)) (fun k => W (ix2 k o))
      (shapeCast ⟨2, ![1, 4096]⟩ b c3 (ix2 (0 : Fin 1) o)) (shapeCast ⟨2, ![16384, 1]⟩ t c2 (ix2 ⟨p.val * 4096 + s.val, hlt⟩ (0 : Fin 1)))
    = expertAt tid (fun k => h (ix3 p s k)) (fun k => W (ix2 k o)) (b (ix1 o)) (t (ix2 p s))
  have e1 : (fun k : Fin 1024 => shapeCast ⟨2, ![16384, 1024]⟩ h c1 (ix2 ⟨p.val * 4096 + s.val, hlt⟩ k)) = fun k => h (ix3 p s k) :=
    funext fun k => flat_row h c1 p s k _ hn
  rw [e1, flat_bias b c3 o, flat_col t c2 p s _ hn]

end Cert.Moe

end
-- ==== Proof.Payload.lean ====
/-
  The kernel body's two stored values, read at one entry of the block.
-/
import proofs.«140531_j27333171872221_1_alg».proof.Proof.Gen.KernelIdeal.Skeleton
import proofs.«140531_j27333171872221_1_alg».proof.Proof.Spec
import Idealize.ShloMosaic.Lib.Pipeline.Value
import Idealize.ShloMosaic.Lib.ValueIdx
import Idealize.ShloMosaic.PureOps.Ideal.Laws

noncomputable section

open scoped BigOperators

namespace Cert.Moe.Body

open Cert.KernelIdeal Cert.KernelIdeal.Gen
open Idealize.ShloMosaic Idealize.ShloMosaic.ValueIdx

/-- The contraction's left index at output entry (p, q) and contraction position k is (p, k). -/
theorem lhsIdx_at (p : Fin 256) (q k : Fin 1024) :
    dot_S256x1024_S1024x1024_S256x1024_1_0_0_1_n_n.lhsIdx (ix2 p q)
        ((contrEquiv1 dot_S256x1024_S1024x1024_S256x1024_1_0_0_1_n_n 1024 rfl rfl).symm k) = ix2 p k := by
  have hk := contrEquiv1_symm_val dot_S256x1024_S1024x1024_S256x1024_1_0_0_1_n_n 1024 rfl rfl k
  refine funext fun a => Fin.ext ?_
  match a with
  | ⟨0, _⟩ =>
    show (dot_S256x1024_S1024x1024_S256x1024_1_0_0_1_n_n.lhsIdx (ix2 p q) _ 0).val = p.val
    unfold DotDims.lhsIdx
    rw [dif_neg (show ¬(0 : Fin S256x1024.rank) ∈ dot_S256x1024_S1024x1024_S256x1024_1_0_0_1_n_n.lhsBatch by decide),
      dif_pos (show (0 : Fin S256x1024.rank) ∈ dot_S256x1024_S1024x1024_S256x1024_1_0_0_1_n_n.lhsNonContracting by decide)]
    rfl
  | ⟨1, _⟩ =>
    exact (dot_S256x1024_S1024x1024_S256x1024_1_0_0_1_n_n.lhsIdx_val_of_single (cl := 1) rfl (ix2 p q) _).trans hk

/-- The contraction's right index at output entry (p, q) and contraction position k is (k, q). -/
theorem rhsIdx_at (p : Fin 256) (q k : Fin 1024) :
    dot_S256x1024_S1024x1024_S256x1024_1_0_0_1_n_n.rhsIdx (ix2 p q)
        ((contrEquiv1 dot_S256x1024_S1024x1024_S256x1024_1_0_0_1_n_n 1024 rfl rfl).symm k) = ix2 k q := by
  have hk := contrEquiv1_symm_val dot_S256x1024_S1024x1024_S256x1024_1_0_0_1_n_n 1024 rfl rfl k
  refine funext fun a => Fin.ext ?_
  match a with
  | ⟨0, _⟩ =>
    exact (dot_S256x1024_S1024x1024_S256x1024_1_0_0_1_n_n.rhsIdx_val_of_single (cr := 0) rfl (ix2 p q) _).trans hk
  | ⟨1, _⟩ =>
    show (dot_S256x1024_S1024x1024_S256x1024_1_0_0_1_n_n.rhsIdx (ix2 p q) _ 1).val = q.val
    unfold DotDims.rhsIdx
    rw [dif_neg (show ¬(1 : Fin S1024x1024.rank) ∈ dot_S256x1024_S1024x1024_S256x1024_1_0_0_1_n_n.rhsBatch by decide),
      dif_pos (show (1 : Fin S1024x1024.rank) ∈ dot_S256x1024_S1024x1024_S256x1024_1_0_0_1_n_n.rhsNonContracting by decide)]
    rfl

/-- The matrix product into the zero accumulator, read at (p, q): row p of the left operand against column q of the
    right one. -/
theorem matmul_at (a : FVec Ideal S256x1024 .bf16) (b : FVec Ideal S1024x1024 .bf16) (p : Fin 256) (q : Fin 1024) :
    matmul dot_S256x1024_S1024x1024_S256x1024_1_0_0_1_n_n none a b (constant (F := Ideal) S256x1024 .f32 0x00000000#32) (ix2 p q)
      = ∑ k : Fin 1024, a (ix2 p k) * b (ix2 k q) := by
  refine (Ideal.matmul_constant_zero_apply dot_S256x1024_S1024x1024_S256x1024_1_0_0_1_n_n none a b (ix2 p q)).trans ?_
  rw [← Equiv.sum_comp (contrEquiv1 dot_S256x1024_S1024x1024_S256x1024_1_0_0_1_n_n 1024 rfl rfl).symm]
  refine Finset.sum_congr rfl fun k _ => ?_
  rw [lhsIdx_at p q k, rhsIdx_at p q k]

/-- A [1, 1024] row broadcast to the block, read at (p, q), is the row's entry q. -/
theorem bcastRow_at {α : Type} (x : S1x1024.Idx → α) (p : Fin 256) (q : Fin 1024) :
    broadcastTo S256x1024 x broadcasts_S1x1024_S256x1024 (ix2 p q) = x (ix2 (0 : Fin 1) q) :=
  broadcastTo_apply x broadcasts_S1x1024_S256x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- A [256, 1] column broadcast to the block, read at (p, q), is the column's entry p. -/
theorem bcastCol_at {α : Type} (x : S256x1.Idx → α) (p : Fin 256) (q : Fin 1024) :
    broadcastTo S256x1024 x broadcasts_S256x1_S256x1024 (ix2 p q) = x (ix2 p (0 : Fin 1)) :=
  broadcastTo_apply x broadcasts_S256x1_S256x1024 (ix2 p q) (ix2 p (0 : Fin 1)) (fun a => match a with
    | ⟨0, _⟩ => by show p.val = if (256 : Nat) = 1 then 0 else p.val; rw [if_neg (by decide)]
    | ⟨1, _⟩ => by show 0 = if (1 : Nat) = 1 then 0 else q.val; rw [if_pos rfl])

/-- Expert 0's stored value at (p, q): the product's entry plus the bias entry, times the gate of type id 0. -/
theorem pay3_at (x0 : Vec Ideal S256x1024 .f32) (x2 : Vec Ideal S1024x1024 .f32) (x3 : Vec Ideal S1x1024 .f32)
    (x1 : Vec Ideal S256x1 .i32) (p : Fin 256) (q : Fin 1024) :
    k0_pay3 (F := Ideal) x0 x2 x3 x1 (ix2 p q)
      = Cert.Moe.expertAt 0#32 (fun k => x0 (ix2 p k)) (fun k => x2 (ix2 k q)) (x3 (ix2 (0 : Fin 1) q)) (x1 (ix2 p (0 : Fin 1))) := by
  have h : k0_pay3 (F := Ideal) x0 x2 x3 x1 (ix2 p q) =
      (matmul dot_S256x1024_S1024x1024_S256x1024_1_0_0_1_n_n none
            (truncf .bf16 (shapeCast S256x1024 x0 shapeCasts_S256x1024_S256x1024) bitsLt_bf16_f32 : FVec Ideal S256x1024 .bf16)
            (truncf .bf16 x2 bitsLt_bf16_f32 : FVec Ideal S1024x1024 .bf16)
            (constant (F := Ideal) S256x1024 .f32 0x00000000#32) (ix2 p q)
          + broadcastTo S256x1024 (shapeCast S1x1024 x3 shapeCasts_S1x1024_S1x1024) broadcasts_S1x1024_S256x1024 (ix2 p q))
        * broadcastTo S256x1024
            (sitofp (F := Ideal) .f32 (extui 32 (cmpi .eq (shapeCast S256x1 x1 shapeCasts_S256x1_S256x1) (broadcast S256x1 0#32)) natLt_1_32))
            broadcasts_S256x1_S256x1024 (ix2 p q) := rfl
  rw [h, shapeCast_self, shapeCast_self, shapeCast_self, matmul_at, bcastRow_at, bcastCol_at]
  show (∑ k : Fin 1024, x0 (ix2 p k) * x2 (ix2 k q) + x3 (ix2 (0 : Fin 1) q))
      * FloatOps.sitofp (F := Ideal) .f32 ((IntOp.cmpi .eq (x1 (ix2 p (0 : Fin 1))) 0#32).setWidth 32) = _
  rw [Cert.Moe.gate_sitofp]
  rfl

/-- Expert 1's stored value at (p, q): the same with its own weights and bias and the gate of type id 1. -/
theorem pay4_at (x0 : Vec Ideal S256x1024 .f32) (x4 : Vec Ideal S1024x1024 .f32) (x5 : Vec Ideal S1x1024 .f32)
    (x1 : Vec Ideal S256x1 .i32) (p : Fin 256) (q : Fin 1024) :
    k0_pay4 (F := Ideal) x0 x4 x5 x1 (ix2 p q)
      = Cert.Moe.expertAt 1#32 (fun k => x0 (ix2 p k)) (fun k => x4 (ix2 k q)) (x5 (ix2 (0 : Fin 1) q)) (x1 (ix2 p (0 : Fin 1))) := by
  have h : k0_pay4 (F := Ideal) x0 x4 x5 x1 (ix2 p q) =
      (matmul dot_S256x1024_S1024x1024_S256x1024_1_0_0_1_n_n none
            (truncf .bf16 (shapeCast S256x1024 x0 shapeCasts_S256x1024_S256x1024) bitsLt_bf16_f32 : FVec Ideal S256x1024 .bf16)
            (truncf .bf16 x4 bitsLt_bf16_f32 : FVec Ideal S1024x1024 .bf16)
            (constant (F := Ideal) S256x1024 .f32 0x00000000#32) (ix2 p q)
          + broadcastTo S256x1024 (shapeCast S1x1024 x5 shapeCasts_S1x1024_S1x1024) broadcasts_S1x1024_S256x1024 (ix2 p q))
        * broadcastTo S256x1024
            (sitofp (F := Ideal) .f32 (extui 32 (cmpi .eq (shapeCast S256x1 x1 shapeCasts_S256x1_S256x1) (broadcast S256x1 1#32)) natLt_1_32))
            broadcasts_S256x1_S256x1024 (ix2 p q) := rfl
  rw [h, shapeCast_self, shapeCast_self, shapeCast_self, matmul_at, bcastRow_at, bcastCol_at]
  show (∑ k : Fin 1024, x0 (ix2 p k) * x4 (ix2 k q) + x5 (ix2 (0 : Fin 1) q))
      * FloatOps.sitofp (F := Ideal) .f32 ((IntOp.cmpi .eq (x1 (ix2 p (0 : Fin 1))) 1#32).setWidth 32) = _
  rw [Cert.Moe.gate_sitofp]
  rfl

end Cert.Moe.Body

end
-- ==== Proof.Blocks.lean ====
/-
  From blocks to arrays.  The grid has 4 × 64 points; point t = 64·c + r works on the 256 tokens of row block r and the
  1024 output features of column block c.  It reads rows 256·r … 256·r + 255 of the token matrix and of the type-id
  column, and columns 1024·c … 1024·c + 1023 of a weight matrix and of its bias row, and writes block (r, c) of each
  result matrix.  Entry (p, q) of what it writes is therefore entry (256·r + p, 1024·c + q) of ONE function of the whole
  arrays — the flat expert of Spec — and, the 256 blocks tiling the [16384, 4096] matrix, each result matrix ends
  holding that function.
-/
import proofs.«140531_j27333171872221_1_alg».proof.Proof.Gen.KernelIdeal.Frame
import proofs.«140531_j27333171872221_1_alg».proof.Proof.Spec
import proofs.«140531_j27333171872221_1_alg».proof.Proof.Payload
import Idealize.ShloMosaic.Lib.Pipeline.Value
import Idealize.ShloMosaic.Lib.ValueIdx

noncomputable section

open scoped BigOperators

namespace Cert.Moe.Blocks

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Equal arguments give equal entries. -/
theorem expertAt_congr {tid : BitVec 32} {r r' c c' : Fin 1024 → EReal} {b b' : EReal} {y y' : BitVec 32}
    (hr : r = r') (hc : c = c') (hb : b = b') (hy : y = y') :
    Cert.Moe.expertAt tid r c b y = Cert.Moe.expertAt tid r' c' b' y' := by
  subst hr hc hb hy; rfl

/-- Where each window's block sits at point t: the row block is t mod 64, the column block t div 64; the token and
    type-id windows follow the row block, the weight and bias windows the column block. -/
theorem idx_facts : ∀ t : Fin cfg0.N,
    win0_6.index t (0 : Fin 2) = t.val % 64 ∧ win0_6.index t (1 : Fin 2) = t.val / 64
    ∧ win0_7.index t (0 : Fin 2) = t.val % 64 ∧ win0_7.index t (1 : Fin 2) = t.val / 64
    ∧ win0_0.index t (0 : Fin 2) = t.val % 64 ∧ win0_0.index t (1 : Fin 2) = 0
    ∧ win0_1.index t (0 : Fin 2) = t.val % 64 ∧ win0_1.index t (1 : Fin 2) = 0
    ∧ win0_2.index t (0 : Fin 2) = 0 ∧ win0_2.index t (1 : Fin 2) = t.val / 64
    ∧ win0_3.index t (0 : Fin 2) = 0 ∧ win0_3.index t (1 : Fin 2) = t.val / 64
    ∧ win0_4.index t (0 : Fin 2) = 0 ∧ win0_4.index t (1 : Fin 2) = t.val / 64
    ∧ win0_5.index t (0 : Fin 2) = 0 ∧ win0_5.index t (1 : Fin 2) = t.val / 64 :=
  (by decide +kernel : ∀ t : Fin grid0.N, _)

/-! ## A block read at an entry is the array read at the block's offset plus the entry -/

theorem read0 (A : S16384x1024.Idx → EReal) (t : Fin cfg0.N) (p : Fin 256) (q : Fin 1024) (r : Fin 16384) (s : Fin 1024)
    (hr : r.val = win0_0.index t (0 : Fin 2) * 256 + p.val) (hs : s.val = win0_0.index t (1 : Fin 2) * 1024 + q.val) :
    ((cfg0.win 0).blk t).view.read (Elt Ideal) A (ix2 p q) = A (ix2 r s) := by
  rw [View.read_apply]
  refine congrArg A (funext fun a => Fin.ext ?_)
  match a with
  | ⟨0, _⟩ => show win0_0.index t (0 : Fin 2) * 256 + 1 * p.val = r.val; omega
  | ⟨1, _⟩ => show win0_0.index t (1 : Fin 2) * 1024 + 1 * q.val = s.val; omega

theorem read1 (A : S16384x1.Idx → BitVec 32) (t : Fin cfg0.N) (p : Fin 256) (q : Fin 1) (r : Fin 16384) (s : Fin 1)
    (hr : r.val = win0_1.index t (0 : Fin 2) * 256 + p.val) (hs : s.val = win0_1.index t (1 : Fin 2) * 1 + q.val) :
    ((cfg0.win 1).blk t).view.read (Elt Ideal) A (ix2 p q) = A (ix2 r s) := by
  rw [View.read_apply]
  refine congrArg A (funext fun a => Fin.ext ?_)
  match a with
  | ⟨0, _⟩ => show win0_1.index t (0 : Fin 2) * 256 + 1 * p.val = r.val; omega
  | ⟨1, _⟩ => show win0_1.index t (1 : Fin 2) * 1 + 1 * q.val = s.val; omega

theorem read2 (A : S1024x4096.Idx → EReal) (t : Fin cfg0.N) (p : Fin 1024) (q : Fin 1024) (r : Fin 1024) (s : Fin 4096)
    (hr : r.val = win0_2.index t (0 : Fin 2) * 1024 + p.val) (hs : s.val = win0_2.index t (1 : Fin 2) * 1024 + q.val) :
    ((cfg0.win 2).blk t).view.read (Elt Ideal) A (ix2 p q) = A (ix2 r s) := by
  rw [View.read_apply]
  refine congrArg A (funext fun a => Fin.ext ?_)
  match a with
  | ⟨0, _⟩ => show win0_2.index t (0 : Fin 2) * 1024 + 1 * p.val = r.val; omega
  | ⟨1, _⟩ => show win0_2.index t (1 : Fin 2) * 1024 + 1 * q.val = s.val; omega

theorem read3 (A : S1x4096.Idx → EReal) (t : Fin cfg0.N) (p : Fin 1) (q : Fin 1024) (r : Fin 1) (s : Fin 4096)
    (hr : r.val = win0_3.index t (0 : Fin 2) * 1 + p.val) (hs : s.val = win0_3.index t (1 : Fin 2) * 1024 + q.val) :
    ((cfg0.win 3).blk t).view.read (Elt Ideal) A (ix2 p q) = A (ix2 r s) := by
  rw [View.read_apply]
  refine congrArg A (funext fun a => Fin.ext ?_)
  match a with
  | ⟨0, _⟩ => show win0_3.index t (0 : Fin 2) * 1 + 1 * p.val = r.val; omega
  | ⟨1, _⟩ => show win0_3.index t (1 : Fin 2) * 1024 + 1 * q.val = s.val; omega

theorem read4 (A : S1024x4096.Idx → EReal) (t : Fin cfg0.N) (p : Fin 1024) (q : Fin 1024) (r : Fin 1024) (s : Fin 4096)
    (hr : r.val = win0_4.index t (0 : Fin 2) * 1024 + p.val) (hs : s.val = win0_4.index t (1 : Fin 2) * 1024 + q.val) :
    ((cfg0.win 4).blk t).view.read (Elt Ideal) A (ix2 p q) = A (ix2 r s) := by
  rw [View.read_apply]
  refine congrArg A (funext fun a => Fin.ext ?_)
  match a with
  | ⟨0, _⟩ => show win0_4.index t (0 : Fin 2) * 1024 + 1 * p.val = r.val; omega
  | ⟨1, _⟩ => show win0_4.index t (1 : Fin 2) * 1024 + 1 * q.val = s.val; omega

theorem read5 (A : S1x4096.Idx → EReal) (t : Fin cfg0.N) (p : Fin 1) (q : Fin 1024) (r : Fin 1) (s : Fin 4096)
    (hr : r.val = win0_5.index t (0 : Fin 2) * 1 + p.val) (hs : s.val = win0_5.index t (1 : Fin 2) * 1024 + q.val) :
    ((cfg0.win 5).blk t).view.read (Elt Ideal) A (ix2 p q) = A (ix2 r s) := by
  rw [View.read_apply]
  refine congrArg A (funext fun a => Fin.ext ?_)
  match a with
  | ⟨0, _⟩ => show win0_5.index t (0 : Fin 2) * 1 + 1 * p.val = r.val; omega
  | ⟨1, _⟩ => show win0_5.index t (1 : Fin 2) * 1024 + 1 * q.val = s.val; omega

/-! ## Output window 6 -/

/-- Entry (p, q) of what point t computes from its four blocks is the flat expert of the whole arrays at entry (p, q) of
    the point's output block: the rows, columns, bias entries and type ids it reads are the ones that entry names. -/
theorem point_expert6 (tid : BitVec 32) (A0 : S16384x1024.Idx → EReal) (A1 : S16384x1.Idx → BitVec 32)
    (A2 : S1024x4096.Idx → EReal) (A3 : S1x4096.Idx → EReal) (t : Fin cfg0.N) (p : Fin 256) (q : Fin 1024) :
    Cert.Moe.expertAt tid (fun k => ((cfg0.win 0).blk t).view.read (Elt Ideal) A0 (ix2 p k))
        (fun k => ((cfg0.win 2).blk t).view.read (Elt Ideal) A2 (ix2 k q))
        (((cfg0.win 3).blk t).view.read (Elt Ideal) A3 (ix2 (0 : Fin 1) q))
        (((cfg0.win 1).blk t).view.read (Elt Ideal) A1 (ix2 p (0 : Fin 1)))
      = Cert.Moe.expertFlat tid A0 A1 A2 A3 (((cfg0.win 6).blk t).view.emb (ix2 p q)) := by
  obtain ⟨e60, e61, e70, e71, e00, e01, e10, e11, e20, e21, e30, e31, e40, e41, e50, e51⟩ := idx_facts t
  have hp := p.isLt
  have hq := q.isLt
  have i0 : ((((cfg0.win 6).blk t).view.emb (ix2 p q)) 0).val = win0_6.index t (0 : Fin 2) * 256 + 1 * p.val := rfl
  have i1 : ((((cfg0.win 6).blk t).view.emb (ix2 p q)) 1).val = win0_6.index t (1 : Fin 2) * 1024 + 1 * q.val := rfl
  unfold Cert.Moe.expertFlat
  refine expertAt_congr (funext fun k => ?_) (funext fun k => ?_) ?_ ?_
  · exact read0 A0 t p k _ k (i0.trans (by omega)) (by have := k.isLt; omega)
  · exact read2 A2 t k q k _ (by have := k.isLt; omega) (i1.trans (by omega))
  · exact read3 A3 t (0 : Fin 1) q (0 : Fin 1) _ (by show (0 : ℕ) = _; omega) (i1.trans (by omega))
  · exact read1 A1 t p (0 : Fin 1) _ (0 : Fin 1) (i0.trans (by omega)) (by show (0 : ℕ) = _; omega)

/-- What point t writes back to result 0 is block t of the flat expert of the arrays as the region finds them. -/
theorem flushed6_eq (m : (ℓ : Loc nD τ sig) → Buf (Elt Ideal) ℓ) (c : Dev nD) (t : Fin cfg0.N) :
    (dats m 0 c).flushed 6 t = ((cfg0.win 6).blk t).view.read (Elt Ideal)
      (Cert.Moe.expertFlat 0#32 (V m c main_v0) (V m c main_v1) (V m c main_arg2) (V m c main_v2)) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x1024) hz,
    View.ld_unit_zero (S := S1x1024) hz, View.ld_unit_zero (S := S256x1) hz]
  funext j
  obtain ⟨p, q, rfl⟩ : ∃ (p : Fin 256) (q : Fin 1024), j = ix2 p q := ⟨j 0, j 1, eq_ix2 j⟩
  rw [View.read_apply]
  show k0_pay3 (iblk m c 0 t) (iblk m c 2 t) (iblk m c 3 t) (iblk m c 1 t) (ix2 p q) = _
  refine (Cert.Moe.Body.pay3_at _ _ _ _ p q).trans ?_
  unfold iblk
  exact point_expert6 0#32 _ _ _ _ t p q

/-- An index of the result matrix is in point t's block iff each coordinate is in the block's range on its axis. -/
theorem mem_blk6 (t : Fin cfg0.N) (i : S16384x4096.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_0).slice (win0_6.rect t)).set ↔ _
  rw [View.set_slice_whole, Rect.mem_set_unit]
  exact Iff.rfl

/-- Every entry (n, o) of the result matrix is in the block of the point with row block n div 256 and column block
    o div 1024. -/
theorem cover6 (i : S16384x4096.Idx) : ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 256 := N_0
  have hlt : (i 1).val / 1024 * 64 + (i 0).val / 256 < cfg0.N := by rw [hN]; omega
  obtain ⟨e60, e61, e70, e71, e00, e01, e10, e11, e20, e21, e30, e31, e40, e41, e50, e51⟩ := idx_facts ⟨(i 1).val / 1024 * 64 + (i 0).val / 256, hlt⟩
  refine ⟨⟨(i 1).val / 1024 * 64 + (i 0).val / 256, hlt⟩, flush0_6 _, ?_⟩
  rw [mem_blk6]
  intro a
  match a with
  | ⟨0, _⟩ =>
    show win0_6.index ⟨(i 1).val / 1024 * 64 + (i 0).val / 256, hlt⟩ (0 : Fin 2) * 256 ≤ (i 0).val ∧ (i 0).val < win0_6.index ⟨(i 1).val / 1024 * 64 + (i 0).val / 256, hlt⟩ (0 : Fin 2) * 256 + 256
    rw [e60]
    show ((i 1).val / 1024 * 64 + (i 0).val / 256) % 64 * 256 ≤ (i 0).val ∧ (i 0).val < ((i 1).val / 1024 * 64 + (i 0).val / 256) % 64 * 256 + 256
    omega
  | ⟨1, _⟩ =>
    show win0_6.index ⟨(i 1).val / 1024 * 64 + (i 0).val / 256, hlt⟩ (1 : Fin 2) * 1024 ≤ (i 1).val ∧ (i 1).val < win0_6.index ⟨(i 1).val / 1024 * 64 + (i 0).val / 256, hlt⟩ (1 : Fin 2) * 1024 + 1024
    rw [e61]
    show ((i 1).val / 1024 * 64 + (i 0).val / 256) / 64 * 1024 ≤ (i 1).val ∧ (i 1).val < ((i 1).val / 1024 * 64 + (i 0).val / 256) / 64 * 1024 + 1024
    omega

/-- Result 0 after the region: the flat expert of the arrays as the region finds them. -/
theorem final6 (m : (ℓ : Loc nD τ sig) → Buf (Elt Ideal) ℓ) (c : Dev nD) :
    (dats m 0 c).arrAt 6 cfg0.N = Cert.Moe.expertFlat 0#32 (V m c main_v0) (V m c main_v1) (V m c main_arg2) (V m c main_v2) :=
  (dats m 0 c).arrAt_eq_of_cover 6 _ (fun t _ => flushed6_eq m c t) cover6

/-! ## Output window 7 -/

/-- Entry (p, q) of what point t computes from its four blocks is the flat expert of the whole arrays at entry (p, q) of
    the point's output block: the rows, columns, bias entries and type ids it reads are the ones that entry names. -/
theorem point_expert7 (tid : BitVec 32) (A0 : S16384x1024.Idx → EReal) (A1 : S16384x1.Idx → BitVec 32)
    (A2 : S1024x4096.Idx → EReal) (A3 : S1x4096.Idx → EReal) (t : Fin cfg0.N) (p : Fin 256) (q : Fin 1024) :
    Cert.Moe.expertAt tid (fun k => ((cfg0.win 0).blk t).view.read (Elt Ideal) A0 (ix2 p k))
        (fun k => ((cfg0.win 4).blk t).view.read (Elt Ideal) A2 (ix2 k q))
        (((cfg0.win 5).blk t).view.read (Elt Ideal) A3 (ix2 (0 : Fin 1) q))
        (((cfg0.win 1).blk t).view.read (Elt Ideal) A1 (ix2 p (0 : Fin 1)))
      = Cert.Moe.expertFlat tid A0 A1 A2 A3 (((cfg0.win 7).blk t).view.emb (ix2 p q)) := by
  obtain ⟨e60, e61, e70, e71, e00, e01, e10, e11, e20, e21, e30, e31, e40, e41, e50, e51⟩ := idx_facts t
  have hp := p.isLt
  have hq := q.isLt
  have i0 : ((((cfg0.win 7).blk t).view.emb (ix2 p q)) 0).val = win0_7.index t (0 : Fin 2) * 256 + 1 * p.val := rfl
  have i1 : ((((cfg0.win 7).blk t).view.emb (ix2 p q)) 1).val = win0_7.index t (1 : Fin 2) * 1024 + 1 * q.val := rfl
  unfold Cert.Moe.expertFlat
  refine expertAt_congr (funext fun k => ?_) (funext fun k => ?_) ?_ ?_
  · exact read0 A0 t p k _ k (i0.trans (by omega)) (by have := k.isLt; omega)
  · exact read4 A2 t k q k _ (by have := k.isLt; omega) (i1.trans (by omega))
  · exact read5 A3 t (0 : Fin 1) q (0 : Fin 1) _ (by show (0 : ℕ) = _; omega) (i1.trans (by omega))
  · exact read1 A1 t p (0 : Fin 1) _ (0 : Fin 1) (i0.trans (by omega)) (by show (0 : ℕ) = _; omega)

/-- What point t writes back to result 1 is block t of the flat expert of the arrays as the region finds them. -/
theorem flushed7_eq (m : (ℓ : Loc nD τ sig) → Buf (Elt Ideal) ℓ) (c : Dev nD) (t : Fin cfg0.N) :
    (dats m 0 c).flushed 7 t = ((cfg0.win 7).blk t).view.read (Elt Ideal)
      (Cert.Moe.expertFlat 1#32 (V m c main_v0) (V m c main_v1) (V m c main_arg4) (V m c main_v3)) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x1024) hz,
    View.ld_unit_zero (S := S1x1024) hz, View.ld_unit_zero (S := S256x1) hz]
  funext j
  obtain ⟨p, q, rfl⟩ : ∃ (p : Fin 256) (q : Fin 1024), j = ix2 p q := ⟨j 0, j 1, eq_ix2 j⟩
  rw [View.read_apply]
  show k0_pay4 (iblk m c 0 t) (iblk m c 4 t) (iblk m c 5 t) (iblk m c 1 t) (ix2 p q) = _
  refine (Cert.Moe.Body.pay4_at _ _ _ _ p q).trans ?_
  unfold iblk
  exact point_expert7 1#32 _ _ _ _ t p q

/-- An index of the result matrix is in point t's block iff each coordinate is in the block's range on its axis. -/
theorem mem_blk7 (t : Fin cfg0.N) (i : S16384x4096.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v4_1).slice (win0_7.rect t)).set ↔ _
  rw [View.set_slice_whole, Rect.mem_set_unit]
  exact Iff.rfl

/-- Every entry (n, o) of the result matrix is in the block of the point with row block n div 256 and column block
    o div 1024. -/
theorem cover7 (i : S16384x4096.Idx) : ∃ t : Fin cfg0.N, (cfg0.win 7).flush t = true ∧ i ∈ ((cfg0.win 7).blk t).view.set := by
  have hi0 : (i 0).val < 16384 := (i 0).isLt
  have hi1 : (i 1).val < 4096 := (i 1).isLt
  have hN : cfg0.N = 256 := N_0
  have hlt : (i 1).val / 1024 * 64 + (i 0).val / 256 < cfg0.N := by rw [hN]; omega
  obtain ⟨e60, e61, e70, e71, e00, e01, e10, e11, e20, e21, e30, e31, e40, e41, e50, e51⟩ := idx_facts ⟨(i 1).val / 1024 * 64 + (i 0).val / 256, hlt⟩
  refine ⟨⟨(i 1).val / 1024 * 64 + (i 0).val / 256, hlt⟩, flush0_7 _, ?_⟩
  rw [mem_blk7]
  intro a
  match a with
  | ⟨0, _⟩ =>
    show win0_7.index ⟨(i 1).val / 1024 * 64 + (i 0).val / 256, hlt⟩ (0 : Fin 2) * 256 ≤ (i 0).val ∧ (i 0).val < win0_7.index ⟨(i 1).val / 1024 * 64 + (i 0).val / 256, hlt⟩ (0 : Fin 2) * 256 + 256
    rw [e70]
    show ((i 1).val / 1024 * 64 + (i 0).val / 256) % 64 * 256 ≤ (i 0).val ∧ (i 0).val < ((i 1).val / 1024 * 64 + (i 0).val / 256) % 64 * 256 + 256
    omega
  | ⟨1, _⟩ =>
    show win0_7.index ⟨(i 1).val / 1024 * 64 + (i 0).val / 256, hlt⟩ (1 : Fin 2) * 1024 ≤ (i 1).val ∧ (i 1).val < win0_7.index ⟨(i 1).val / 1024 * 64 + (i 0).val / 256, hlt⟩ (1 : Fin 2) * 1024 + 1024
    rw [e71]
    show ((i 1).val / 1024 * 64 + (i 0).val / 256) / 64 * 1024 ≤ (i 1).val ∧ (i 1).val < ((i 1).val / 1024 * 64 + (i 0).val / 256) / 64 * 1024 + 1024
    omega

/-- Result 1 after the region: the flat expert of the arrays as the region finds them. -/
theorem final7 (m : (ℓ : Loc nD τ sig) → Buf (Elt Ideal) ℓ) (c : Dev nD) :
    (dats m 0 c).arrAt 7 cfg0.N = Cert.Moe.expertFlat 1#32 (V m c main_v0) (V m c main_v1) (V m c main_arg4) (V m c main_v3) :=
  (dats m 0 c).arrAt_eq_of_cover 7 _ (fun t _ => flushed7_eq m c t) cover7

end Cert.Moe.Blocks

end
-- ==== Proof.HostEnds.lean ====
/-
  The kernel's whole run.  Before the region the program lays the batch out as a [16384, 1024] matrix, the type ids as a
  [16384, 1] column and each bias as a [1, 4096] row; after it, it lays each [16384, 4096] result matrix back out as
  [4, 4096, 4096].  With what the region leaves (Blocks) and the fact that these re-layouts change nothing (Flatten),
  the two results are the two experts of the arguments.
-/
import proofs.«140531_j27333171872221_1_alg».proof.Proof.Gen.KernelIdeal.Frame
import proofs.«140531_j27333171872221_1_alg».proof.Proof.Spec
import proofs.«140531_j27333171872221_1_alg».proof.Proof.Flatten
import proofs.«140531_j27333171872221_1_alg».proof.Proof.Blocks
import Idealize.ShloMosaic.Lib.Pipeline.Value
import Idealize.ShloMosaic.Lib.StableHlo.Run

noncomputable section

namespace Cert.Moe.Kernel

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the region finds: the arguments re-laid -/

theorem entry_v0 (c : Dev nD) : (V m c main_v0 : S16384x1024.Idx → EReal)
    = shapeCast S16384x1024 (m ((c : Thread nD τ).loc main_arg0)) Facts₀.shapeCasts_S4x4096x1024_S16384x1024 := by
  show StableHlo.after hostOps0 (fun b => m (c, b)) (Proc.devRef .tc main_v0) = _
  after_results
  rfl

theorem entry_v1 (c : Dev nD) : (V m c main_v1 : S16384x1.Idx → BitVec 32)
    = shapeCast S16384x1 (m ((c : Thread nD τ).loc main_arg1)) Facts₀.shapeCasts_S4x4096_S16384x1 := by
  show StableHlo.after hostOps0 (fun b => m (c, b)) (Proc.devRef .tc main_v1) = _
  after_results
  rfl

theorem entry_v2 (c : Dev nD) : (V m c main_v2 : S1x4096.Idx → EReal)
    = shapeCast S1x4096 (m ((c : Thread nD τ).loc main_arg3)) Facts₀.shapeCasts_S4096_S1x4096 := by
  show StableHlo.after hostOps0 (fun b => m (c, b)) (Proc.devRef .tc main_v2) = _
  after_results
  rfl

theorem entry_v3 (c : Dev nD) : (V m c main_v3 : S1x4096.Idx → EReal)
    = shapeCast S1x4096 (m ((c : Thread nD τ).loc main_arg5)) Facts₀.shapeCasts_S4096_S1x4096 := by
  show StableHlo.after hostOps0 (fun b => m (c, b)) (Proc.devRef .tc main_v3) = _
  after_results
  rfl

/-! ## What the lines after the region leave: each result matrix re-laid -/

theorem tail5 (c : Dev nD) : (Pipeline.afterTail₀ cfgs (dats m) 0 (V0 m) [hostOps1] c main_v5 : S4x4096x4096.Idx → EReal)
    = shapeCast S4x4096x4096 ((dats m 0 c).arrAt 6 cfg0.N) Facts₀.shapeCasts_S16384x4096_S4x4096x4096 := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4_0)
      = (dats m 0 c).arrAt 6 cfg0.N from Pipeline.withArrays_arr spec0 launch0.win.arr_inj c _ _ 6]
  rfl

theorem tail6 (c : Dev nD) : (Pipeline.afterTail₀ cfgs (dats m) 0 (V0 m) [hostOps1] c main_v6 : S4x4096x4096.Idx → EReal)
    = shapeCast S4x4096x4096 ((dats m 0 c).arrAt 7 cfg0.N) Facts₀.shapeCasts_S16384x4096_S4x4096x4096 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v4_1)
      = (dats m 0 c).arrAt 7 cfg0.N from Pipeline.withArrays_arr spec0 launch0.win.arr_inj c _ _ 7]
  rfl

/-! ## The two results -/

/-- The first result is expert 0 of the arguments. -/
theorem result0 (c : Dev nD) : (Pipeline.afterTail₀ cfgs (dats m) 0 (V0 m) [hostOps1] c main_v5 : S4x4096x4096.Idx → EReal)
    = Cert.Moe.expert 0#32 (m ((c : Thread nD τ).loc main_arg0)) (m ((c : Thread nD τ).loc main_arg1))
        (m ((c : Thread nD τ).loc main_arg2)) (m ((c : Thread nD τ).loc main_arg3)) := by
  rw [tail5 m c, Cert.Moe.Blocks.final6 m c, entry_v0 m c, entry_v1 m c, V_main_arg2 m c, entry_v2 m c]
  exact Cert.Moe.expert_of_flat 0#32 _ _ _ _ _ _ _ _

/-- The second result is expert 1 of the arguments. -/
theorem result1 (c : Dev nD) : (Pipeline.afterTail₀ cfgs (dats m) 0 (V0 m) [hostOps1] c main_v6 : S4x4096x4096.Idx → EReal)
    = Cert.Moe.expert 1#32 (m ((c : Thread nD τ).loc main_arg0)) (m ((c : Thread nD τ).loc main_arg1))
        (m ((c : Thread nD τ).loc main_arg4)) (m ((c : Thread nD τ).loc main_arg5)) := by
  rw [tail6 m c, Cert.Moe.Blocks.final7 m c, entry_v0 m c, entry_v1 m c, V_main_arg4 m c, entry_v3 m c]
  exact Cert.Moe.expert_of_flat 1#32 _ _ _ _ _ _ _ _

/-! ## The run -/

/-- Every weakly fair execution of the kernel program terminates with the two results at the two experts of the
    arguments, and the arguments as launched. -/
theorem run : θ_run defs (onTc (τ := τ) (main (F := Ideal))) ⟨m, fun _ => 0, ρ⟩ (fun r => ∀ c : Dev nD,
      r.2.mem ((c.tc : Thread nD τ).loc main_v5) = Cert.Moe.expert 0#32 (m ((c : Thread nD τ).loc main_arg0)) (m ((c : Thread nD τ).loc main_arg1))
        (m ((c : Thread nD τ).loc main_arg2)) (m ((c : Thread nD τ).loc main_arg3))
      ∧ r.2.mem ((c.tc : Thread nD τ).loc main_v6) = Cert.Moe.expert 1#32 (m ((c : Thread nD τ).loc main_arg0)) (m ((c : Thread nD τ).loc main_arg1))
        (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v5 (Pipeline.mem_restRefs_of main_v5 (by decide) (by decide))).trans (result0 m c),
      ((h c).2 main_v6 (Pipeline.mem_restRefs_of main_v6 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.Moe.Kernel

end
-- ==== Proof.lean ====
/-
  Two dense experts over a batch of tokens, each kept only at the tokens of its own type.

  The kernel lays the [4, 4096, 1024] batch out as 16384 rows, and on a 4 × 64 grid computes, for a block of 256 tokens and
  1024 output features, `(x · W_e + b_e) · [type id = e]` for e = 0, 1 (the matrix product of the whole 1024-long rows, so no
  sum is split across grid points), then lays the two [16384, 4096] results back out as [4, 4096, 4096].  The reference
  computes `(einsum(x, W_e) + b_e) · [type id = e]` on the whole arrays.  Over the extended reals both are, entry by
  entry, `(Σ_k x k · W_e k o + b_e o) · g` with `g` the real number 1 or 0 — the same sum over the same 1024 indices, the
  same bias entry, the same gate — so no law beyond re-indexing is needed and the inputs' finiteness is never used.

  Spec states that function; RefSpec shows the reference's last stage is it; Payload reads the kernel body's stored
  values at one entry; Blocks carries them from blocks to the whole result matrices; Flatten says the re-layouts change
  nothing; HostEnds puts the kernel's run together.  The kernel changes no number format in a way the idealization has
  to account for, so `preserves` has nothing to state.
-/
import proofs.«140531_j27333171872221_1_alg».proof.Defs
import proofs.«140531_j27333171872221_1_alg».proof.Proof.Gen.Kernel
import proofs.«140531_j27333171872221_1_alg».proof.Proof.Gen.Kernel.Skeleton
import proofs.«140531_j27333171872221_1_alg».proof.Proof.Gen.Kernel.Launch
import proofs.«140531_j27333171872221_1_alg».proof.Proof.Gen.Kernel.Points
import proofs.«140531_j27333171872221_1_alg».proof.Proof.Gen.Kernel.Frame
import proofs.«140531_j27333171872221_1_alg».proof.Proof.Gen.KernelIdeal
import proofs.«140531_j27333171872221_1_alg».proof.Proof.Gen.KernelIdeal.Skeleton
import proofs.«140531_j27333171872221_1_alg».proof.Proof.Gen.KernelIdeal.Launch
import proofs.«140531_j27333171872221_1_alg».proof.Proof.Gen.KernelIdeal.Points
import proofs.«140531_j27333171872221_1_alg».proof.Proof.Gen.KernelIdeal.Frame
import proofs.«140531_j27333171872221_1_alg».proof.Proof.Gen.ReferenceIdeal
import proofs.«140531_j27333171872221_1_alg».proof.Proof.Gen.Pre_finite_inputs
import proofs.«140531_j27333171872221_1_alg».proof.Proof.Gen.ReferenceIdeal.Run
import proofs.«140531_j27333171872221_1_alg».proof.Proof.Gen.ReferenceIdeal.Read
import proofs.«140531_j27333171872221_1_alg».proof.Proof.Spec
import proofs.«140531_j27333171872221_1_alg».proof.Proof.RefSpec
import proofs.«140531_j27333171872221_1_alg».proof.Proof.HostEnds
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with expert 0 and expert 1 of the arguments as their two results. -/
theorem algebraic : Cert.algebraic_KernelIdeal_ReferenceIdeal := by
  intro m ρ m' ρ' _ hagree
  refine ⟨_, _, Cert.Moe.Kernel.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v9_eq, Cert.Moe.Ref.ref_expert0, a0, a1, a2, a3]
  · rw [Cert.ReferenceIdeal.Read.val_main_v19_eq, Cert.Moe.Ref.ref_expert1, a0, a1, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
